-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S600000x128 .f32) (main_arg2 : IVec S2x600000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S6000x128 : Shape := ⟨2, ![6000, 128]⟩

abbrev nBuf : Space → Nat
  | .hbm => 27
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S1x128, .f32⟩
  | .hbm, ⟨21, _⟩ => ⟨S1x128, .f32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S6000x128, .f32⟩
  | .local _ .vmem, ⟨9, _⟩ => ⟨S6000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  shapeCasts_S6000x128_S6000x128 : S6000x128.ShapeCasts S6000x128
  bcast_S_S50000x128 : S_.BroadcastsInDim S50000x128 (![] : Fin 0 → Fin S50000x128.rank)
  gather_S50000x128_S600000x1_S600000x128_1_0_n_n_0_1_1128_wf : GatherDims.WF S50000x128 S600000x1 S600000x128 [1] [0] [] [0] [] 1 ![1, 128]
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6000x128.size a ≤ S600000x128.size a
  hwx0_6 : ∀ i : grid0.Coords, EltTy.bits .f32 = 32 ∨ (Rect.block (s := S600000x128) S6000x128.size (cc0_transform_6 i) (hinb0_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg1) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S6000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1x600000 : Shape := ⟨2, ![1, 600000]⟩
abbrev S600000 : Shape := ⟨1, ![600000]⟩
abbrev S600000x1 : Shape := ⟨2, ![600000, 1]⟩

abbrev nBuf : Space → Nat
  | .hbm => 50
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S600000x128, .f32⟩
  | .hbm, ⟨8, _⟩ => ⟨S1x128, .f32⟩
  | .hbm, ⟨9, _⟩ => ⟨S600000x128, .f32⟩
  | .hbm, ⟨10, _⟩ => ⟨S600000x128, .f32⟩
  | .hbm, ⟨11, _⟩ => ⟨S_, .f32⟩
  | .hbm, ⟨12, _⟩ => ⟨S600000x128, .f32⟩
  | .hbm, ⟨13, _⟩ => ⟨S600000x128, .f32⟩
  | .hbm, ⟨14, _⟩ => ⟨S600000x128, .f32⟩
  | .hbm, ⟨15, _⟩ => ⟨S600000x128, .f32⟩
  | .hbm, ⟨16, _⟩ => ⟨S600000x128, .i1⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S600000x128, .f32⟩
  | .hbm, ⟨21, _⟩ => ⟨S600000x128, .f32⟩
  | .hbm, ⟨22, _⟩ => ⟨S600000x128, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S600000x128, .f32⟩
  | .hbm, ⟨27, _⟩ => ⟨S600000x128, .f32⟩
  | .hbm, ⟨28, _⟩ => ⟨S600000x128, .f32⟩
  | .hbm, ⟨29, _⟩ => ⟨S1x128, .f32⟩
  | .hbm, ⟨30, _⟩ => ⟨S600000x128, .f32⟩
  | .hbm, ⟨31, _⟩ => ⟨S600000x128, .f32⟩
  | .hbm, ⟨32, _⟩ => ⟨S1x600000, .i32⟩
  | .hbm, ⟨33, _⟩ => ⟨S600000, .i32⟩
  | .hbm, ⟨34, _⟩ => ⟨S1x600000, .i32⟩
  | .hbm, ⟨35, _⟩ => ⟨S600000, .i32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.EdgeMsg.lean ====
/-
  The message one edge sends, as a function of the arrays, element by element.

  For edge `r` and feature `f`:
    pre_k   = Σ_j  edges[r, j] · W1[j, k] + b1[k]                       (first dense layer, k < 128)
    act_k   = softplus(pre_k) − log 2                                  (shifted softplus)
    filt_f  = Σ_k  act_k · W2[k, f] + b2[f]                             (second dense layer)
    msg[r, f] = gathered[r, f] · filt_f
  where softplus is written in its overflow-safe arrangement  max(h, 0) + log(1 + e^(−|h|))  and log 2 is the
  one f32 word both programs carry, which is never evaluated.

  Both programs guard the softplus with a test  d ≠ d  on  d = h − 0  (true of no extended real), read the
  maximum against a literal zero, and one writes  0 − |d|  where the other writes  −|d|. The two scalar lemmas at
  the end say that each of these spellings is `ssp h`. They hold on all extended reals: only  x − 0 = x,
  0 − x = −x  and the irreflexivity of  ≠  are used, no cancellation.
-/
import Idealize.ShloMosaic.PureOps.Ideal
import Idealize.ShloMosaic.PureOps.Ideal.Laws
import Idealize.ShloMosaic.Lib.ValueIdx

noncomputable section

namespace Cert.EdgeMsg

open Idealize.ShloMosaic Idealize.ShloMosaic.ValueIdx

/-- The f32 word nearest log 2, as the extended real it denotes. -/
def log2w : EReal := Ideal.ofBits .f32 0x3F317218#32

/-- Shifted softplus, `log(1 + e^h) − log 2`, in the arrangement `max(h, 0) + log1p(e^(−|h|)) − log 2`. -/
def ssp (h : EReal) : EReal := max h 0 + Ideal.log1p (Ideal.exp (-(max h (-h)))) - log2w

/-- One unit of the first dense layer: a row of edge features against column `k` of `W1`, plus the bias. -/
def pre (row : Fin 128 → EReal) (W1 : (⟨2, ![128, 128]⟩ : Shape).Idx → EReal) (b1 : Fin 128 → EReal) (k : Fin 128) : EReal :=
  (∑ j : Fin 128, row j * W1 (ix2 j k)) + b1 k

/-- One feature of the filter the edge network produces from a row of edge features. -/
def filt (row : Fin 128 → EReal) (W1 : (⟨2, ![128, 128]⟩ : Shape).Idx → EReal) (b1 : Fin 128 → EReal)
    (W2 : (⟨2, ![128, 128]⟩ : Shape).Idx → EReal) (b2 : Fin 128 → EReal) (f : Fin 128) : EReal :=
  (∑ k : Fin 128, ssp (pre row W1 b1 k) * W2 (ix2 k f)) + b2 f

/-- The messages of `n` edges: the gathered sender features times the filter, element by element. -/
def msg {n : Nat} (ng e : (⟨2, ![n, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![n, 128]⟩ : Shape).Idx → EReal := fun i =>
  ng i * filt (fun j => e (ix2 (n0 := n) (i 0) j)) W1 (fun k => b1 (ix1 k)) W2 (fun k => b2 (ix1 k)) (i 1)

/-- A value differs from itself at no extended real: the guard of either spelling is the zero bit. -/
theorem cmp_une_self (d : EReal) : Ideal.cmp .une d d = 0#1 := by simp [Ideal.cmp]
theorem cmp_one_self (d : EReal) : Ideal.cmp .one d d = 0#1 := by simp [Ideal.cmp]

/-- The guarded softplus with `−|d|` in the exponent, less log 2, is `ssp`. -/
theorem ssp_neg_form (h z : EReal) (hz : z = 0) :
    Scalar.select (Ideal.cmp .une (h - z) (h - z)) (h + z)
        (max h z + Ideal.log1p (Ideal.exp (-(max (h - z) (-(h - z)))))) - log2w = ssp h := by
  subst hz
  rw [cmp_une_self, select_zero, sub_zero]
  rfl

/-- The guarded softplus with `0 − |d|` in the exponent, less log 2, is `ssp`. -/
theorem ssp_sub_form (h z : EReal) (hz : z = 0) :
    Scalar.select (Ideal.cmp .one (h - z) (h - z)) (h + z)
        (max h z + Ideal.log1p (Ideal.exp (z - max (h - z) (-(h - z))))) - log2w = ssp h := by
  subst hz
  rw [cmp_one_self, select_zero, sub_zero, zero_sub]
  rfl

end Cert.EdgeMsg

end
-- ==== Proof.RefMsg.lean ====
/-
  The reference computes the message function of `EdgeMsg`, and its result is the messages summed into
  their receivers.

  Read one operation at a time, the reference's product operand `%10` at an index `(r, f)` is
    Σ_k act_k · W2[k, f] + b2[f],   act_k = softplus(Σ_j edges[r, j] · W1[j, k] + b1[k]) − log 2,
  with the softplus in the guarded spelling whose exponent is `−|d|`: the filter `filt` of row `r`. The
  product with the gathered sender rows is then `msg`, and the scatter-add of those messages at the receiver
  indices is named `out`: the gather and the scatter are carried as printed, never opened.
-/
import proofs.«112246_j24953759989864_2_alg».proof.Proof.Gen.ReferenceIdeal.Read
import proofs.«112246_j24953759989864_2_alg».proof.Proof.EdgeMsg

noncomputable section

namespace Cert.RefMsg

open Cert.ReferenceIdeal Cert.ReferenceIdeal.Gen Cert.ReferenceIdeal.Read Cert.EdgeMsg
open Idealize.ShloMosaic Idealize.ShloMosaic.ValueIdx

variable (x0 : (⟨S50000x128, .f32⟩ : BufTy).Contents (Elt Ideal)) (x1 : (⟨S600000x128, .f32⟩ : BufTy).Contents (Elt Ideal))
  (x2 : (⟨S2x600000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- The first dense layer with its bias, at `(r, k)`: row `r` of the edges against column `k` of `W1`. -/
theorem pre_eq (i : S600000x128.Idx) :
    val_main_v3 (F := Ideal) x1 x3 x4 i
      = pre (fun j => x1 (ix2 (n0 := 600000) (i 0) j)) x3 (fun k => x4 (ix1 k)) (i 1) := by
  rw [val_main_v3_apply, val_main_v0_apply, val_main_v2_apply, val_main_v1_apply]
  have el : ∀ k : Fin 128, lidx_main_v0 i k = ix2 (n0 := 600000) (i 0) k := fun k =>
    funext fun a => Fin.ext (by match a with | ⟨0, _⟩ => rfl | ⟨1, _⟩ => rfl)
  have er : ∀ k : Fin 128, ridx_main_v0 i k = ix2 k (i 1) := fun k =>
    funext fun a => Fin.ext (by match a with | ⟨0, _⟩ => rfl | ⟨1, _⟩ => rfl)
  have eb : idx_main_v1 (idx_main_v2 i) = ix1 (i 1) :=
    funext fun a => Fin.ext (by match a with | ⟨0, _⟩ => rfl)
  simp only [el, er, eb]
  rfl

/-- The activation at an index: the reference's guarded softplus less log 2 is the shifted softplus of the
    first layer's value there. -/
theorem act_eq (j : S600000x128.Idx) :
    val_main_v6 (F := Ideal) x1 x3 x4 j = ssp (val_main_v3 (F := Ideal) x1 x3 x4 j) := by
  simp only [val_main_v6_apply, val_main_v4_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_v5_apply, val_main_cst_apply,
    val_main_call0_v0_apply, val_main_call0_v2_apply, val_main_call0_v5_apply, val_main_call0_cst_apply]
  exact ssp_neg_form _ _ Ideal.ofBits_zero_f32

/-- The second dense layer with its bias, at `(r, f)`, is the filter of row `r`. -/
theorem filt_eq (i : S600000x128.Idx) :
    val_main_v10 (F := Ideal) x1 x3 x4 x5 x6 i
      = filt (fun j => x1 (ix2 (n0 := 600000) (i 0) j)) x3 (fun k => x4 (ix1 k)) x5 (fun k => x6 (ix1 k)) (i 1) := by
  rw [val_main_v10_apply, val_main_v7_apply, val_main_v9_apply, val_main_v8_apply]
  have er : ∀ k : Fin 128, ridx_main_v7 i k = ix2 k (i 1) := fun k =>
    funext fun a => Fin.ext (by match a with | ⟨0, _⟩ => rfl | ⟨1, _⟩ => rfl)
  have eb : idx_main_v8 (idx_main_v9 i) = ix1 (i 1) :=
    funext fun a => Fin.ext (by match a with | ⟨0, _⟩ => rfl)
  have ea : ∀ k : Fin 128, val_main_v6 (F := Ideal) x1 x3 x4 (lidx_main_v7 i k)
      = ssp (pre (fun j => x1 (ix2 (n0 := 600000) (i 0) j)) x3 (fun k => x4 (ix1 k)) k) := fun k => by
    rw [act_eq, pre_eq]
    rfl
  simp only [er, eb, ea]
  rfl

/-- The scatter's update operand is the message function of the gathered sender rows. -/
theorem msg_eq :
    val_main_v22 (F := Ideal) x0 x1 x2 x3 x4 x5 x6 = msg (val_main_v21 (F := Ideal) x0 x2) x1 x3 x4 x5 x6 := by
  funext i
  rw [val_main_v22_apply, filt_eq]
  rfl

/-- The node update: the messages of the gathered sender rows, summed into a zero array at the receiver
    indices. The gather (sender indices wrapped and clamped as jnp does) and the scatter-add are the printed ones. -/
def out : FVec Ideal S50000x128 .f32 :=
  Host.scatterAdd (F := Ideal) scatter_S50000x128_S600000x1_S600000x128_1_0_0_1 (val_main_v23 (F := Ideal)) (val_main_v24 (F := Ideal) x2)
    (msg (val_main_v21 (F := Ideal) x0 x2) x1 x3 x4 x5 x6)

/-- The reference's result is `out` of its arguments. -/
theorem out_eq : val_main_v25 (F := Ideal) x0 x1 x2 x3 x4 x5 x6 = out x0 x1 x2 x3 x4 x5 x6 := by
  unfold val_main_v25 out
  rw [msg_eq]

end Cert.RefMsg

end
-- ==== Proof.KernelBlock.lean ====
/-
  What the kernel body stores for one block of 6000 edges, element by element.

  The body loads a block of edge features, the matching block of gathered sender rows, both weight matrices and
  both biases (each bias as a [1,128] row), and stores
    gathered · ((softplus(edges · W1 + b1) − log 2) · W2 + b2)
  with each matrix product taken into a zero accumulator, the bias rows broadcast down the block, and the
  softplus in the guarded spelling whose exponent is `0 − |d|`. At the extended reals the changes of float format
  are the identity and a product into a zero accumulator is the plain sum over the contracted axis, so the stored
  element at `(r, f)` is the gathered element times the filter `filt` of row `r` of the block.
-/
import proofs.«112246_j24953759989864_2_alg».proof.Proof.Gen.KernelIdeal.Skeleton
import proofs.«112246_j24953759989864_2_alg».proof.Proof.EdgeMsg
import Idealize.ShloMosaic.Lib.Pipeline.Value
import Idealize.ShloMosaic.Lib.ValueLayout
import Idealize.ShloMosaic.Lib.ValueIdx
import Idealize.ShloMosaic.PureOps.Ideal.Laws

noncomputable section

namespace Cert.KernelBlock

open Cert.KernelIdeal Cert.KernelIdeal.Gen Cert.KernelIdeal.Facts₀ Cert.EdgeMsg
open Idealize.ShloMosaic Idealize.ShloMosaic.ValueIdx

/-! ## The matrix product of a block at an index -/

theorem lhs_row (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
theorem lhs_contr (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
theorem rhs_contr (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
theorem rhs_col (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- A [6000,128] by [128,128] product into a zero accumulator, at `(r, f)`: row `r` against column `f`. -/
theorem matmul_zero_apply {φ₁ φ₂ : FTy} (lhs : FVec Ideal S6000x128 φ₁) (rhs : FVec Ideal S128x128 φ₂) (r : Fin 6000) (f : Fin 128) :
    matmul (F := Ideal) dot_S6000x128_S128x128_S6000x128_1_0_0_1_n_n none lhs rhs (constant S6000x128 .f32 0x00000000#32) (ix2 r f)
      = ∑ k : Fin 128, lhs (ix2 r k) * rhs (ix2 k f) := by
  simp only [matmul]
  rw [Ideal.matmul_constant_zero_apply, ← Equiv.sum_comp (contrEquiv1 dot_S6000x128_S128x128_S6000x128_1_0_0_1_n_n 128 rfl rfl).symm]
  refine Finset.sum_congr rfl fun k _ => ?_
  have hk := contrEquiv1_symm_val dot_S6000x128_S128x128_S6000x128_1_0_0_1_n_n 128 rfl rfl k
  have el : dot_S6000x128_S128x128_S6000x128_1_0_0_1_n_n.lhsIdx (ix2 r f) ((contrEquiv1 dot_S6000x128_S128x128_S6000x128_1_0_0_1_n_n 128 rfl rfl).symm k) = ix2 r k := funext fun a => Fin.ext (by
    match a with
    | ⟨0, _⟩ => exact lhs_row _ _
    | ⟨1, _⟩ => exact (lhs_contr _ _).trans hk)
  have er : dot_S6000x128_S128x128_S6000x128_1_0_0_1_n_n.rhsIdx (ix2 r f) ((contrEquiv1 dot_S6000x128_S128x128_S6000x128_1_0_0_1_n_n 128 rfl rfl).symm k) = ix2 k f := funext fun a => Fin.ext (by
    match a with
    | ⟨0, _⟩ => exact (rhs_contr _ _).trans hk
    | ⟨1, _⟩ => exact rhs_col _ _)
  rw [el, er]

/-! ## The stored value at an index -/

/-- The body's stored value at `(r, f)` of the block: the gathered element times the filter of the block's row `r`,
    the biases read from their [1,128] rows. -/
theorem pay_apply (x0 x1 : FVec Ideal S6000x128 .f32) (x2 x4 : FVec Ideal S128x128 .f32) (x3 x5 : FVec Ideal S1x128 .f32)
    (r : Fin 6000) (f : Fin 128) :
    k0_pay1 (F := Ideal) x0 x2 x3 x4 x5 x1 (ix2 r f)
      = x1 (ix2 r f) * filt (fun j => x0 (ix2 r j)) x2 (fun k => x3 (ix2 (0 : Fin 1) k)) x4 (fun k => x5 (ix2 (0 : Fin 1) k)) f := by
  unfold k0_pay1
  simp only [shapeCast_self]
  -- the first layer's value on the block, named; at (r, k) it is `pre` of row r
  generalize hH : addf (matmul dot_S6000x128_S128x128_S6000x128_1_0_0_1_n_n none (truncf .bf16 x0 _) (truncf .bf16 x2 _) (constant S6000x128 .f32 0x00000000#32))
      (broadcastTo S6000x128 x3 _) = H
  have hHk : ∀ k : Fin 128, H (ix2 r k) = pre (fun j => x0 (ix2 r j)) x2 (fun k => x3 (ix2 (0 : Fin 1) k)) k := fun k => by
    rw [← hH]
    show matmul (F := Ideal) dot_S6000x128_S128x128_S6000x128_1_0_0_1_n_n none _ _ _ (ix2 r k) + broadcastTo S6000x128 x3 _ (ix2 r k) = _
    rw [matmul_zero_apply, broadcastTo_1b_ab_apply]
    rfl
  show x1 (ix2 r f) * (matmul (F := Ideal) dot_S6000x128_S128x128_S6000x128_1_0_0_1_n_n none _ _ _ (ix2 r f) + broadcastTo S6000x128 x5 _ (ix2 r f)) = _
  rw [matmul_zero_apply, broadcastTo_1b_ab_apply]
  unfold filt
  refine congrArg (x1 (ix2 r f) * ·) (congrArg (· + x5 (ix2 (0 : Fin 1) f)) (Finset.sum_congr rfl fun k _ => ?_))
  refine congrArg (· * x4 (ix2 k f)) ?_
  rw [← hHk k]
  exact ssp_sub_form (H (ix2 r k)) _ Ideal.ofBits_zero_f32

end Cert.KernelBlock

end
-- ==== Proof.KernelMsg.lean ====
/-
  The array the kernel region leaves: the message function of the arrays it finds.

  The grid has 100 points; point `t` stages rows `6000·t … 6000·t + 5999` of the edge features and of the gathered
  sender rows, the two weight matrices and the two bias rows whole, and writes back rows `6000·t …` of the
  result. So what point `t` writes back at block position `(p, q)` is the stored value of `KernelBlock` at
  `(p, q)`, which is the message at array position `(6000·t + p, q)`: every input block is its array read at
  those rows. The bias rows are the host's reshape of the [128] biases to [1,128], read back at `(0, k)` as
  entry `k`. The 100 blocks tile the array (row `r` lies in the block of point `r / 6000`), so the array after
  the region is the message function everywhere.
-/
import proofs.«112246_j24953759989864_2_alg».proof.Proof.Gen.KernelIdeal.Frame
import proofs.«112246_j24953759989864_2_alg».proof.Proof.KernelBlock
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelMsg

open Cert.KernelIdeal Cert.KernelIdeal.Gen Cert.KernelIdeal.Facts₀ Cert.EdgeMsg Cert.KernelBlock

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three row-blocked windows are at block `(t, 0)`, the four whole
    windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block is its array read at the block's rows -/

theorem edges_blk (c : Dev nD) (t : Fin cfg0.N) (y : S6000x128.Idx) (k : S600000x128.Idx)
    (hk0 : (k 0).val = t.val * 6000 + (y 0).val) (hk1 : (k 1).val = (y 1).val) :
    (iblk m c 0 t : FVec Ideal S6000x128 .f32) y = (V m c main_arg1 : S600000x128.Idx → EReal) k := by
  obtain ⟨e0, e1, -⟩ := idx_facts t
  unfold iblk
  rw [View.read_apply]
  show V m c main_arg1 _ = V m c main_arg1 _
  congr 1
  funext a
  apply Fin.ext
  match a with
  | ⟨0, _⟩ => show win0_0.index t (0 : Fin 2) * 6000 + 1 * (y 0).val = (k 0).val; rw [e0, hk0]; omega
  | ⟨1, _⟩ => show win0_0.index t (1 : Fin 2) * 128 + 1 * (y 1).val = (k 1).val; rw [e1, hk1]; omega

theorem gathered_blk (c : Dev nD) (t : Fin cfg0.N) (y : S6000x128.Idx) (k : S600000x128.Idx)
    (hk0 : (k 0).val = t.val * 6000 + (y 0).val) (hk1 : (k 1).val = (y 1).val) :
    (iblk m c 1 t : FVec Ideal S6000x128 .f32) y = (V m c main_v10 : S600000x128.Idx → EReal) k := by
  obtain ⟨-, -, e0, e1, -⟩ := idx_facts t
  unfold iblk
  rw [View.read_apply]
  show V m c main_v10 _ = V m c main_v10 _
  congr 1
  funext a
  apply Fin.ext
  match a with
  | ⟨0, _⟩ => show win0_1.index t (0 : Fin 2) * 6000 + 1 * (y 0).val = (k 0).val; rw [e0, hk0]; omega
  | ⟨1, _⟩ => show win0_1.index t (1 : Fin 2) * 128 + 1 * (y 1).val = (k 1).val; rw [e1, hk1]; omega

theorem w1_blk (c : Dev nD) (t : Fin cfg0.N) (y : S128x128.Idx) :
    (iblk m c 2 t : FVec Ideal S128x128 .f32) y = (V m c main_arg3 : S128x128.Idx → EReal) y := by
  obtain ⟨-, -, -, -, e0, e1, -⟩ := idx_facts t
  unfold iblk
  rw [View.read_apply]
  show V m c main_arg3 _ = V m c main_arg3 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem w2_blk (c : Dev nD) (t : Fin cfg0.N) (y : S128x128.Idx) :
    (iblk m c 4 t : FVec Ideal S128x128 .f32) y = (V m c main_arg5 : S128x128.Idx → EReal) y := by
  obtain ⟨-, -, -, -, -, -, -, -, e0, e1, -⟩ := idx_facts t
  unfold iblk
  rw [View.read_apply]
  show V m c main_arg5 _ = V m c main_arg5 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem b1_blk (c : Dev nD) (t : Fin cfg0.N) (y : S1x128.Idx) :
    (iblk m c 3 t : FVec Ideal S1x128 .f32) y = (V m c main_v11 : S1x128.Idx → EReal) y := by
  obtain ⟨-, -, -, -, -, -, e0, e1, -⟩ := idx_facts t
  unfold iblk
  rw [View.read_apply]
  show V m c main_v11 _ = V m c main_v11 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem b2_blk (c : Dev nD) (t : Fin cfg0.N) (y : S1x128.Idx) :
    (iblk m c 5 t : FVec Ideal S1x128 .f32) y = (V m c main_v12 : S1x128.Idx → EReal) y := by
  obtain ⟨-, -, -, -, -, -, -, -, -, -, e0, e1, -⟩ := idx_facts t
  unfold iblk
  rw [View.read_apply]
  show V m c main_v12 _ = V m c main_v12 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-! ## The bias rows the host wrote before the region -/

theorem V_b1 (c : Dev nD) : (V m c main_v11 : S1x128.Idx → EReal)
    = shapeCast S1x128 (m ((c : Thread nD τ).loc main_arg4)) Gen.shapeCasts_S128_S1x128 := by
  show StableHlo.after hostOps0 (fun b => m (c, b)) (Proc.devRef .tc main_v11) = _
  after_results
  rfl

theorem V_b2 (c : Dev nD) : (V m c main_v12 : S1x128.Idx → EReal)
    = shapeCast S1x128 (m ((c : Thread nD τ).loc main_arg6)) Gen.shapeCasts_S128_S1x128 := by
  show StableHlo.after hostOps0 (fun b => m (c, b)) (Proc.devRef .tc main_v12) = _
  after_results
  rfl

/-! ## The array the region leaves -/

/-- The messages as one function of the arrays the region finds: the gathered sender rows (the host's gather,
    carried as it is), the edge features, the weights, and the two [128] biases. -/
def G (c : Dev nD) : S600000x128.Idx → EReal :=
  msg (n := 600000) (V m c main_v10) (V m c main_arg1) (V m c main_arg3) (m ((c : Thread nD τ).loc main_arg4))
    (V m c main_arg5) (m ((c : Thread nD τ).loc main_arg6))

/-- What point `t` stores at block position `(p, q)` is the message at the array position `i` it sits at:
    row `6000·t + p`, column `q`. -/
theorem point_eq (c : Dev nD) (t : Fin cfg0.N) (p : Fin 6000) (q : Fin 128) (i : S600000x128.Idx)
    (hi0 : (i 0).val = t.val * 6000 + p.val) (hi1 : (i 1).val = q.val) :
    k0_pay1 (F := Ideal) (iblk m c 0 t) (iblk m c 2 t) (iblk m c 3 t) (iblk m c 4 t) (iblk m c 5 t) (iblk m c 1 t) (ix2 p q)
      = G m c i := by
  refine (pay_apply (iblk m c 0 t) (iblk m c 1 t) (iblk m c 2 t) (iblk m c 4 t) (iblk m c 3 t) (iblk m c 5 t) p q).trans ?_
  unfold G msg
  have hq : (i 1 : Fin 128) = q := Fin.ext hi1
  have a1 : (iblk m c 1 t : FVec Ideal S6000x128 .f32) (ix2 p q) = (V m c main_v10 : S600000x128.Idx → EReal) i :=
    gathered_blk m c t (ix2 p q) i hi0 hi1
  have a0 : (fun j : Fin 128 => (iblk m c 0 t : FVec Ideal S6000x128 .f32) (ix2 p j))
      = fun j : Fin 128 => (V m c main_arg1 : S600000x128.Idx → EReal) (ix2 (n0 := 600000) (i 0) j) :=
    funext fun j => edges_blk m c t (ix2 p j) (ix2 (n0 := 600000) (i 0) j) hi0 rfl
  have a2 : (iblk m c 2 t : FVec Ideal S128x128 .f32) = (V m c main_arg3 : S128x128.Idx → EReal) := funext (w1_blk m c t)
  have a4 : (iblk m c 4 t : FVec Ideal S128x128 .f32) = (V m c main_arg5 : S128x128.Idx → EReal) := funext (w2_blk m c t)
  have a3 : (fun k : Fin 128 => (iblk m c 3 t : FVec Ideal S1x128 .f32) (ix2 (0 : Fin 1) k))
      = fun k : Fin 128 => (m ((c : Thread nD τ).loc main_arg4) : S128.Idx → EReal) (ix1 k) :=
    funext fun k => by rw [b1_blk, V_b1, shapeCast_a_1a_apply]
  have a5 : (fun k : Fin 128 => (iblk m c 5 t : FVec Ideal S1x128 .f32) (ix2 (0 : Fin 1) k))
      = fun k : Fin 128 => (m ((c : Thread nD τ).loc main_arg6) : S128.Idx → EReal) (ix1 k) :=
    funext fun k => by rw [b2_blk, V_b2, shapeCast_a_1a_apply]
  rw [a1, a0, a2, a3, a4, a5, hq]

/-- What point `t` writes back is block `t` of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz]
  simp only [View.ld_unit_zero (S := S6000x128) hz, View.ld_unit_zero (S := S128x128) hz, View.ld_unit_zero (S := S1x128) hz]
  obtain ⟨-, -, -, -, -, -, -, -, -, -, -, -, e0, e1⟩ := idx_facts t
  funext j
  obtain ⟨p, q, rfl⟩ : ∃ (p : Fin 6000) (q : Fin 128), j = ix2 p q := ⟨j 0, j 1, eq_ix2 j⟩
  have hi0 : ((((cfg0.win 6).blk t).view.emb (ix2 p q)) 0).val = t.val * 6000 + p.val := by
    show win0_6.index t (0 : Fin 2) * 6000 + 1 * p.val = _
    rw [e0]; omega
  have hi1 : ((((cfg0.win 6).blk t).view.emb (ix2 p q)) 1).val = q.val := by
    show win0_6.index t (1 : Fin 2) * 128 + 1 * q.val = _
    rw [e1]; omega
  exact point_eq m c t p q _ hi0 hi1

/-- An index of the array is in point `t`'s block iff each coordinate is in the block's range on its axis. -/
theorem mem_blk (t : Fin cfg0.N) (i : S600000x128.Idx) :
    i ∈ ((cfg0.win 6).blk t).view.set ↔ ∀ a : Fin 2, win0_6.index t a * S6000x128.size a ≤ (i a).val
      ∧ (i a).val < win0_6.index t a * S6000x128.size a + S6000x128.size a := by
  show i ∈ ((View.whole main_v13).slice (win0_6.rect t)).set ↔ _
  rw [View.set_slice_whole, Rect.mem_set_unit]
  exact Iff.rfl

/-- Every index of the array is in the block of the point its row falls to. -/
theorem cover (i : S600000x128.Idx) :
    ∃ t : Fin cfg0.N, (cfg0.win 6).flush t = true ∧ i ∈ ((cfg0.win 6).blk t).view.set := by
  have hi0 : (i 0).val < 600000 := (i 0).isLt
  have hi1 : (i 1).val < 128 := (i 1).isLt
  have hN : cfg0.N = 100 := N_0
  have ht : (i 0).val / 6000 < cfg0.N := by rw [hN]; omega
  obtain ⟨-, -, -, -, -, -, -, -, -, -, -, -, e0, e1⟩ := idx_facts ⟨(i 0).val / 6000, ht⟩
  refine ⟨⟨(i 0).val / 6000, ht⟩, flush0_6 _, ?_⟩
  rw [mem_blk]
  intro a
  match a with
  | ⟨0, _⟩ =>
    show win0_6.index ⟨(i 0).val / 6000, ht⟩ (0 : Fin 2) * 6000 ≤ (i 0).val
      ∧ (i 0).val < win0_6.index ⟨(i 0).val / 6000, ht⟩ (0 : Fin 2) * 6000 + 6000
    rw [e0]
    show (i 0).val / 6000 * 6000 ≤ (i 0).val ∧ (i 0).val < (i 0).val / 6000 * 6000 + 6000
    omega
  | ⟨1, _⟩ =>
    show win0_6.index ⟨(i 0).val / 6000, ht⟩ (1 : Fin 2) * 128 ≤ (i 1).val
      ∧ (i 1).val < win0_6.index ⟨(i 0).val / 6000, ht⟩ (1 : Fin 2) * 128 + 128
    rw [e1]
    omega

/-- The array after the region is the message function. -/
theorem final (c : Dev nD) : (dats m 0 c).arrAt 6 cfg0.N = G m c :=
  (dats m 0 c).arrAt_eq_of_cover 6 (G m c) (fun t _ => flushed_eq m c t) cover

end Cert.KernelMsg

end
-- ==== Proof.KernelOut.lean ====
/-
  The kernel program's result: the messages summed into their receivers, the same function `out` of the
  arguments that the reference computes.

  Before the region the host gathers the sender rows (indices wrapped and clamped as jnp does) and takes the
  receiver indices out of the edge index; these are the very operations of the reference, so they are read back
  as the reference's own stages and never opened. After the region the host scatter-adds the region's array into a
  zero array at the receiver indices. The region's array is the message function (`KernelMsg.final`), so the
  result is `out`. The arguments end unchanged: an argument the region stages is an input window, whose array ends
  at its entry contents, and no host line writes an argument.
-/
import proofs.«112246_j24953759989864_2_alg».proof.Proof.KernelMsg
import proofs.«112246_j24953759989864_2_alg».proof.Proof.RefMsg
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelOut

open Cert.KernelIdeal Cert.KernelIdeal.Gen Cert.EdgeMsg Cert.KernelMsg

variable (m : (ℓ : Loc nD τ sig) → Buf (Elt Ideal) ℓ) (ρ : Dev nD → PrngReg)

/-- The gathered sender rows the region finds are the reference's gather of the same arguments. -/
theorem gathered (c : Dev nD) : (V m c main_v10 : S600000x128.Idx → EReal)
    = Cert.ReferenceIdeal.Read.val_main_v21 (F := Ideal) (m ((c : Thread nD τ).loc main_arg0)) (m ((c : Thread nD τ).loc main_arg2)) := by
  show StableHlo.after hostOps0 (fun b => m (c, b)) (Proc.devRef .tc main_v10) = _
  after_results
  rfl

/-- The receiver indices the host took before the region are the reference's. -/
theorem receivers (c : Dev nD) : (V m c main_v1 : (⟨S600000, .i32⟩ : BufTy).Contents (Elt Ideal))
    = Cert.ReferenceIdeal.Read.val_main_v12 (F := Ideal) (m ((c : Thread nD τ).loc main_arg2)) := by
  show StableHlo.after hostOps0 (fun b => m (c, b)) (Proc.devRef .tc main_v1) = _
  after_results
  rfl

/-- The result buffer after the host's scatter-add is `out` of the arguments. -/
theorem tail (c : Dev nD) : Pipeline.afterTail₀ cfgs (dats m) 0 (V0 m) [hostOps1] c main_v16
    = Cert.RefMsg.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v16) = _
  after_results
  have e13 : Pipeline.withArrays (cfgs 0).spec c (V0 m c) (fun w => (dats m 0 c).arrAt w (cfgs 0).N) (Proc.devRef .tc main_v13)
      = G m c :=
    (Pipeline.withArrays_arr spec0 launch0.win.arr_inj c _ _ 6).trans (final m c)
  have e1 : Pipeline.withArrays (cfgs 0).spec c (V0 m c) (fun w => (dats m 0 c).arrAt w (cfgs 0).N) (Proc.devRef .tc main_v1)
      = Cert.ReferenceIdeal.Read.val_main_v12 (F := Ideal) (m ((c : Thread nD τ).loc main_arg2)) :=
    (Pipeline.withArrays_of_ne _ c (V0 m c) _ main_v1 (by exact (by decide : ∀ w, Pipeline.arrRef spec0 w ≠ main_v1))).trans
      (receivers m c)
  rw [e13, e1]
  unfold G Cert.RefMsg.out
  rw [gathered, V_main_arg1, V_main_arg3, V_main_arg5]
  rfl

/-- The kernel program's run, read: the result at `out` of the arguments, the arguments unchanged. -/
theorem run : θ_run defs (onTc (τ := τ) (main (F := Ideal))) ⟨m, fun _ => 0, ρ⟩ fun r => ∀ c : Dev nD,
      r.2.mem ((c.tc : Thread nD τ).loc main_v16) = Cert.RefMsg.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v16 (Pipeline.mem_restRefs_of main_v16 (by decide) (by decide))).trans (tail m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c)⟩)
    (run_main m ρ)

end Cert.KernelOut

end
-- ==== Proof.lean ====
/-
  A continuous-filter convolution step of a message-passing network: for every edge, a two-layer network
  of the edge features (a dense layer, shifted softplus, a dense layer) produces a filter, the filter
  multiplies the features of the edge's sender node, and the products are summed into the edge's receiver node.

  The kernel program computes the per-edge products in one gridded region (100 blocks of 6000 edges: two
  matrix products into zero accumulators on reduced-precision copies of their operands) between the host's gather
  of the sender rows and the host's scatter-add into the receivers; the reference does everything on the host with
  two `dot_general`s. At the extended reals a change of float format is the identity and both kinds of matrix
  product are the plain sum over the contracted axis, so the two programs compute the same message function
  (`EdgeMsg.msg`: `RefMsg.msg_eq` for the reference, `KernelMsg.final` for the region's array) and apply the
  same gather before it and the same scatter-add after it. No law that needs finite values is used — only
  `x − 0 = x`, `0 − x = −x` and that no value differs from itself — so the precondition is never opened.

  The three frames: the two kernel programs' are the generated frame certificates; the reference's is its generated
  run with the result dropped. The idealization rewrote nothing, so `preserves` is `True`.
-/
import proofs.«112246_j24953759989864_2_alg».proof.Defs
import proofs.«112246_j24953759989864_2_alg».proof.Proof.Gen.Kernel
import proofs.«112246_j24953759989864_2_alg».proof.Proof.Gen.Kernel.Frame
import proofs.«112246_j24953759989864_2_alg».proof.Proof.Gen.KernelIdeal
import proofs.«112246_j24953759989864_2_alg».proof.Proof.Gen.KernelIdeal.Frame
import proofs.«112246_j24953759989864_2_alg».proof.Proof.Gen.ReferenceIdeal
import proofs.«112246_j24953759989864_2_alg».proof.Proof.Gen.Pre_finite_inputs
import proofs.«112246_j24953759989864_2_alg».proof.Proof.Gen.ReferenceIdeal.Run
import proofs.«112246_j24953759989864_2_alg».proof.Proof.Gen.ReferenceIdeal.Read
import proofs.«112246_j24953759989864_2_alg».proof.Proof.RefMsg
import proofs.«112246_j24953759989864_2_alg».proof.Proof.KernelOut
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the node update `RefMsg.out` of those
    arguments: the kernel program by its run read through the region (`KernelOut.run`), the reference by its
    generated run, whose result term is the scatter-add of the message function (`RefMsg.out_eq`). -/
theorem algebraic : Cert.algebraic_KernelIdeal_ReferenceIdeal := by
  intro m ρ m' ρ' _ hagree
  refine ⟨_, Cert.KernelOut.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq _ _ _ _ _ _ _).trans ?_
  rw [(hagree c).1, (hagree c).2.1, (hagree c).2.2.1, (hagree c).2.2.2.1, (hagree c).2.2.2.2.1,
    (hagree c).2.2.2.2.2.1, (hagree c).2.2.2.2.2.2]
  exact Cert.RefMsg.out_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
